-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x320000 : Shape := ⟨2, ![2, 320000]⟩
abbrev S20000 : Shape := ⟨1, ![20000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S10 .f32) (main_v63 : IVec S_ 1) (main_v67 : IVec S_ 1) : IVec S_ 1 :=
  let main_v68 : IVec S_ 1 := andi main_v63 main_v67
  let main_v69 : FVec F S10 .f32 := Host.absf main_arg16
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg13 : FVec F S256x256 .f32) (main_arg14 : FVec F S256 .f32) (main_arg15 : FVec F S256x10 .f32) (main_arg16 : FVec F S10 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x10 .f32 := Host.absf main_arg15
  let main_cst_24 : FVec F S_ .f32 := constant S_ .f32 0x7F800000#32
  let main_v65 : FVec F S256x10 .f32 := broadcastInDim S256x10 ![] bcast_S_S256x10 main_cst_24
  let main_v66 : IVec S256x10 1 := cmpf .olt main_v64 main_v65
  let main_c_25 : IVec S_ 1 := constantI S_ 1 1#1
  let main_v67 : IVec S_ 1 := (fun x v => Host.reduce IntOp.andi x v reducesTo_S256x10_S_d0_1 h_S_) main_v66 main_c_25
  fn_part4 (F := F) main_arg16 main_v63 main_v67

def fn_part2 {F : FTy → Type} [FloatOps F] (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x10 .f32) (main_arg16 : FVec F S10 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_v48 main_v49 main_v50

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x10 .f32) (main_arg16 : FVec F S10 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S20000x128 .f32) (main_arg1 : IVec S2x320000 32) (main_arg2 : IVec S20000 32) (main_arg3 : FVec F S128x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x10 .f32) (main_arg16 : FVec F S10 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S20000x128 : Shape := ⟨2, ![20000, 128]⟩
abbrev S2x320000 : Shape := ⟨2, ![2, 320000]⟩
abbrev S20000 : Shape := ⟨1, ![20000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S1x256 : Shape := ⟨2, ![1, 256]⟩
abbrev S20000x256 : Shape := ⟨2, ![20000, 256]⟩
abbrev S2000x128 : Shape := ⟨2, ![2000, 128]⟩
abbrev S2000x256 : Shape := ⟨2, ![2000, 256]⟩
abbrev S320000x256 : Shape := ⟨2, ![320000, 256]⟩
abbrev S64x256 : Shape := ⟨2, ![64, 256]⟩
abbrev S20000x1 : Shape := ⟨2, ![20000, 1]⟩
abbrev S64x10 : Shape := ⟨2, ![64, 10]⟩
abbrev S1x10 : Shape := ⟨2, ![1, 10]⟩
abbrev S64 : Shape := ⟨1, ![64]⟩
abbrev S64x1 : Shape := ⟨2, ![64, 1]⟩

abbrev nBuf : Space → Nat
  | .hbm => 95
  | .vmem => 24
  | .smem => 0
  | _ => 0

abbrev bufTy : (tb : Table) → Fin (tcTables nBuf tb) → BufTy
  | .hbm, ⟨0, _⟩ => ⟨S20000x128, .f32⟩
  | .hbm, ⟨1, _⟩ => ⟨S2x320000, .i32⟩
  | .hbm, ⟨2, _⟩ => ⟨S20000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x10, .f32⟩
  | .hbm, ⟨16, _⟩ => ⟨S10, .f32⟩
  | .hbm, ⟨17, _⟩ => ⟨S1x320000, .i32⟩
  | .hbm, ⟨18, _⟩ => ⟨S320000, .i32⟩
  | .hbm, ⟨19, _⟩ => ⟨S1x320000, .i32⟩
  | .hbm, ⟨20, _⟩ => ⟨S320000, .i32⟩
  | .hbm, ⟨21, _⟩ => ⟨S_, .i32⟩
  | .hbm, ⟨22, _⟩ => ⟨S320000, .i32⟩
  | .hbm, ⟨23, _⟩ => ⟨S320000, .i1⟩
  | .hbm, ⟨24, _⟩ => ⟨S_, .i32⟩
  | .hbm, ⟨25, _⟩ => ⟨S320000, .i32⟩
  | .hbm, ⟨26, _⟩ => ⟨S320000, .i32⟩
  | .hbm, ⟨27, _⟩ => ⟨S320000, .i32⟩
  | .hbm, ⟨28, _⟩ => ⟨S320000x1, .i32⟩
  | .hbm, ⟨29, _⟩ => ⟨S320000x128, .f32⟩
  | .hbm, ⟨30, _⟩ => ⟨S_, .f32⟩
  | .hbm, ⟨31, _⟩ => ⟨S20000x128, .f32⟩
  | .hbm, ⟨32, _⟩ => ⟨S320000x1, .i32⟩
  | .hbm, ⟨33, _⟩ => ⟨S20000x128, .f32⟩
  | .hbm, ⟨34, _⟩ => ⟨S20000x128, .f32⟩
  | .hbm, ⟨35, _⟩ => ⟨S1x256, .f32⟩
  | .hbm, ⟨36, _⟩ => ⟨S1x256, .f32⟩
  | .hbm, ⟨37, _⟩ => ⟨S20000x256, .f32⟩
  | .hbm, ⟨38, _⟩ => ⟨S_, .i32⟩
  | .hbm, ⟨39, _⟩ => ⟨S320000, .i32⟩
  | .hbm, ⟨40, _⟩ => ⟨S320000, .i1⟩
  | .hbm, ⟨41, _⟩ => ⟨S_, .i32⟩
  | .hbm, ⟨42, _⟩ => ⟨S320000, .i32⟩
  | .hbm, ⟨43, _⟩ => ⟨S320000, .i32⟩
  | .hbm, ⟨44, _⟩ => ⟨S320000, .i32⟩
  | .hbm, ⟨45, _⟩ => ⟨S320000x1, .i32⟩
  | .hbm, ⟨46, _⟩ => ⟨S320000x256, .f32⟩
  | .hbm, ⟨47, _⟩ => ⟨S_, .f32⟩
  | .hbm, ⟨48, _⟩ => ⟨S20000x256, .f32⟩
  | .hbm, ⟨49, _⟩ => ⟨S320000x1, .i32⟩
  | .hbm, ⟨50, _⟩ => ⟨S20000x256, .f32⟩
  | .hbm, ⟨51, _⟩ => ⟨S20000x256, .f32⟩
  | .hbm, ⟨52, _⟩ => ⟨S1x256, .f32⟩
  | .hbm, ⟨53, _⟩ => ⟨S1x256, .f32⟩
  | .hbm, ⟨54, _⟩ => ⟨S20000x256, .f32⟩
  | .hbm, ⟨55, _⟩ => ⟨S_, .i32⟩
  | .hbm, ⟨56, _⟩ => ⟨S320000, .i32⟩
  | .hbm, ⟨57, _⟩ => ⟨S320000, .i1⟩
  | .hbm, ⟨58, _⟩ => ⟨S_, .i32⟩
  | .hbm, ⟨59, _⟩ => ⟨S320000, .i32⟩
  | .hbm, ⟨60, _⟩ => ⟨S320000, .i32⟩
  | .hbm, ⟨61, _⟩ => ⟨S320000, .i32⟩
  | .hbm, ⟨62, _⟩ => ⟨S320000x1, .i32⟩
  | .hbm, ⟨63, _⟩ => ⟨S320000x256, .f32⟩
  | .hbm, ⟨64, _⟩ => ⟨S_, .f32⟩
  | .hbm, ⟨65, _⟩ => ⟨S20000x256, .f32⟩
  | .hbm, ⟨66, _⟩ => ⟨S320000x1, .i32⟩
  | .hbm, ⟨67, _⟩ => ⟨S20000x256, .f32⟩
  | .hbm, ⟨68, _⟩ => ⟨S20000x256, .f32⟩
  | .hbm, ⟨69, _⟩ => ⟨S1x256, .f32⟩
  | .hbm, ⟨70, _⟩ => ⟨S1x256, .f32⟩
  | .hbm, ⟨71, _⟩ => ⟨S20000x256, .f32⟩
  | .hbm, ⟨72, _⟩ => ⟨S_, .f32⟩
  | .hbm, ⟨73, _⟩ => ⟨S64x256, .f32⟩
  | .hbm, ⟨74, _⟩ => ⟨S20000x1, .i32⟩
  | .hbm, ⟨75, _⟩ => ⟨S64x256, .f32⟩
  | .hbm, ⟨76, _⟩ => ⟨S64x10, .f32⟩
  | .hbm, ⟨77, _⟩ => ⟨S1x10, .f32⟩
  | .hbm, ⟨78, _⟩ => ⟨S64x10, .f32⟩
  | .hbm, ⟨79, _⟩ => ⟨S64x10, .f32⟩
  | .hbm, ⟨80, _⟩ => ⟨S_, .f32⟩
  | .hbm, ⟨81, _⟩ => ⟨S64, .f32⟩
  | .hbm, ⟨82, _⟩ => ⟨S_, .f32⟩
  | .hbm, ⟨83, _⟩ => ⟨S64, .f32⟩
  | .hbm, ⟨84, _⟩ => ⟨S64, .f32⟩
  | .hbm, ⟨85, _⟩ => ⟨S64x1, .f32⟩
  | .hbm, ⟨86, _⟩ => ⟨S64x10, .f32⟩
  | .hbm, ⟨87, _⟩ => ⟨S64x10, .f32⟩
  | .hbm, ⟨88, _⟩ => ⟨S64x10, .f32⟩
  | .hbm, ⟨89, _⟩ => ⟨S_, .f32⟩
  | .hbm, ⟨90, _⟩ => ⟨S64, .f32⟩
  | .hbm, ⟨91, _⟩ => ⟨S64x1, .f32⟩
  | .hbm, ⟨92, _⟩ => ⟨S64x1, .f32⟩
  | .hbm, ⟨93, _⟩ => ⟨S64x10, .f32⟩
  | .hbm, ⟨94, _⟩ => ⟨S64x10, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S256x256, .f32⟩
  | .local _ .vmem, ⟨19, _⟩ => ⟨S1x256, .f32⟩
  | .local _ .vmem, ⟨20, _⟩ => ⟨S256x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_1 : Ref sig .tc := ⟨.hbm, 38, rfl⟩
abbrev main_v18 : Ref sig .tc := ⟨.hbm, 39, rfl⟩
abbrev main_v19 : Ref sig .tc := ⟨.hbm, 40, rfl⟩
abbrev main_c_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call0_cst : Ref sig .tc := ⟨.hbm, 80, rfl⟩
abbrev main_call0_v0 : Ref sig .tc := ⟨.hbm, 81, rfl⟩
abbrev main_call0_cst_0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_v6 : Ref sig .tc := ⟨.hbm, 88, rfl⟩
abbrev main_call0_cst_1 : Ref sig .tc := ⟨.hbm, 89, rfl⟩
abbrev main_call0_v7 : Ref sig .tc := ⟨.hbm, 90, rfl⟩
abbrev main_call0_v8 : Ref sig .tc := ⟨.hbm, 91, rfl⟩
abbrev main_call0_v9 : Ref sig .tc := ⟨.hbm, 92, rfl⟩
abbrev main_call0_v10 : Ref sig .tc := ⟨.hbm, 93, rfl⟩
abbrev main_v53 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x128 : S_.BroadcastsInDim S20000x128 (![] : Fin 0 → Fin S20000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  bcast_S_S20000x256 : S_.BroadcastsInDim S20000x256 (![] : Fin 0 → Fin S20000x256.rank)
  shapeCasts_S2000x256_S2000x256 : S2000x256.ShapeCasts S2000x256
  bcast_S_S64x256 : S_.BroadcastsInDim S64x256 (![] : Fin 0 → Fin S64x256.rank)
  bcast_S20000_S20000x1_0 : S20000.BroadcastsInDim S20000x1 (![0] : Fin 1 → Fin S20000x1.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x10_0_1 : S64x1.BroadcastsInDim S64x10 (![0, 1] : Fin 2 → Fin S64x10.rank)
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S64x256_S20000x1_S20000x256_1_0_0_1_wf : ScatterDims.WF S64x256 S20000x1 S20000x256 [1] [0] [0] 1
  dot_S64x256_S256x10_S64x10_1_0_0_1_n_n_wf : DotDims.WF S64x256 S256x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S20000x256.size a
  hwx0_5 : ∀ i : grid0.Coords, EltTy.bits .f32 = 32 ∨ (Rect.block (s := S20000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S20000x256.size a
  hwx1_5 : ∀ i : grid1.Coords, EltTy.bits .f32 = 32 ∨ (Rect.block (s := S20000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S20000x256.size a
  hwx2_5 : ∀ i : grid2.Coords, EltTy.bits .f32 = 32 ∨ (Rect.block (s := S20000x256) S2000x256.size (cc2_transform_5 i) (hinb2_5 i)).WholeWords (EltTy.packing .f32)

variable [Facts₀]

def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S64x256_S20000x1_S20000x256_1_0_0_1 : ScatterDims S64x256 S20000x1 S20000x256 where
  updateWindowDims := [1]
  insertedWindowDims := [0]
  scatterDimsToOperandDims := [0]
  indexVectorDim := 1
  wf := scatter_S64x256_S20000x1_S20000x256_1_0_0_1_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

abbrev win0_0 : Pipeline.Window sig grid0 :=
  Pipeline.Window.ofSpec (Memref.whole main_v14) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S20000x128 : Shape := ⟨2, ![20000, 128]⟩
abbrev S2x320000 : Shape := ⟨2, ![2, 320000]⟩
abbrev S20000 : Shape := ⟨1, ![20000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S20000x256 : Shape := ⟨2, ![20000, 256]⟩
abbrev S1x256 : Shape := ⟨2, ![1, 256]⟩
abbrev S320000x256 : Shape := ⟨2, ![320000, 256]⟩
abbrev S64x256 : Shape := ⟨2, ![64, 256]⟩
abbrev S20000x1 : Shape := ⟨2, ![20000, 1]⟩
abbrev S64x10 : Shape := ⟨2, ![64, 10]⟩
abbrev S1x10 : Shape := ⟨2, ![1, 10]⟩
abbrev S64 : Shape := ⟨1, ![64]⟩
abbrev S64x1 : Shape := ⟨2, ![64, 1]⟩

abbrev nBuf : Space → Nat
  | .hbm => 128
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S2x320000, .i32⟩
  | .hbm, ⟨2, _⟩ => ⟨S20000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x10, .f32⟩
  | .hbm, ⟨16, _⟩ => ⟨S10, .f32⟩
  | .hbm, ⟨17, _⟩ => ⟨S1x320000, .i32⟩
  | .hbm, ⟨18, _⟩ => ⟨S320000, .i32⟩
  | .hbm, ⟨19, _⟩ => ⟨S1x320000, .i32⟩
  | .hbm, ⟨20, _⟩ => ⟨S320000, .i32⟩
  | .hbm, ⟨21, _⟩ => ⟨S_, .i32⟩
  | .hbm, ⟨22, _⟩ => ⟨S320000, .i32⟩
  | .hbm, ⟨23, _⟩ => ⟨S320000, .i1⟩
  | .hbm, ⟨24, _⟩ => ⟨S_, .i32⟩
  | .hbm, ⟨25, _⟩ => ⟨S320000, .i32⟩
  | .hbm, ⟨26, _⟩ => ⟨S320000, .i32⟩
  | .hbm, ⟨27, _⟩ => ⟨S320000, .i32⟩
  | .hbm, ⟨28, _⟩ => ⟨S320000x1, .i32⟩
  | .hbm, ⟨29, _⟩ => ⟨S320000x128, .f32⟩
  | .hbm, ⟨30, _⟩ => ⟨S_, .f32⟩
  | .hbm, ⟨31, _⟩ => ⟨S20000x128, .f32⟩
  | .hbm, ⟨32, _⟩ => ⟨S320000x1, .i32⟩
  | .hbm, ⟨33, _⟩ => ⟨S20000x128, .f32⟩
  | .hbm, ⟨34, _⟩ => ⟨S20000x128, .f32⟩
  | .hbm, ⟨35, _⟩ => ⟨S20000x256, .f32⟩
  | .hbm, ⟨36, _⟩ => ⟨S1x256, .f32⟩
  | .hbm, ⟨37, _⟩ => ⟨S20000x256, .f32⟩
  | .hbm, ⟨38, _⟩ => ⟨S20000x256, .f32⟩
  | .hbm, ⟨39, _⟩ => ⟨S_, .f32⟩
  | .hbm, ⟨40, _⟩ => ⟨S20000x256, .f32⟩
  | .hbm, ⟨41, _⟩ => ⟨S20000x256, .f32⟩
  | .hbm, ⟨42, _⟩ => ⟨S20000x256, .f32⟩
  | .hbm, ⟨43, _⟩ => ⟨S1x256, .f32⟩
  | .hbm, ⟨44, _⟩ => ⟨S20000x256, .f32⟩
  | .hbm, ⟨45, _⟩ => ⟨S20000x256, .f32⟩
  | .hbm, ⟨46, _⟩ => ⟨S_, .f32⟩
  | .hbm, ⟨47, _⟩ => ⟨S20000x256, .f32⟩
  | .hbm, ⟨48, _⟩ => ⟨S20000x256, .f32⟩
  | .hbm, ⟨49, _⟩ => ⟨S_, .i32⟩
  | .hbm, ⟨50, _⟩ => ⟨S320000, .i32⟩
  | .hbm, ⟨51, _⟩ => ⟨S320000, .i1⟩
  | .hbm, ⟨52, _⟩ => ⟨S_, .i32⟩
  | .hbm, ⟨53, _⟩ => ⟨S320000, .i32⟩
  | .hbm, ⟨54, _⟩ => ⟨S320000, .i32⟩
  | .hbm, ⟨55, _⟩ => ⟨S320000, .i32⟩
  | .hbm, ⟨56, _⟩ => ⟨S320000x1, .i32⟩
  | .hbm, ⟨57, _⟩ => ⟨S320000x256, .f32⟩
  | .hbm, ⟨58, _⟩ => ⟨S_, .f32⟩
  | .hbm, ⟨59, _⟩ => ⟨S20000x256, .f32⟩
  | .hbm, ⟨60, _⟩ => ⟨S320000x1, .i32⟩
  | .hbm, ⟨61, _⟩ => ⟨S20000x256, .f32⟩
  | .hbm, ⟨62, _⟩ => ⟨S20000x256, .f32⟩
  | .hbm, ⟨63, _⟩ => ⟨S20000x256, .f32⟩
  | .hbm, ⟨64, _⟩ => ⟨S1x256, .f32⟩
  | .hbm, ⟨65, _⟩ => ⟨S20000x256, .f32⟩
  | .hbm, ⟨66, _⟩ => ⟨S20000x256, .f32⟩
  | .hbm, ⟨67, _⟩ => ⟨S_, .f32⟩
  | .hbm, ⟨68, _⟩ => ⟨S20000x256, .f32⟩
  | .hbm, ⟨69, _⟩ => ⟨S20000x256, .f32⟩
  | .hbm, ⟨70, _⟩ => ⟨S20000x256, .f32⟩
  | .hbm, ⟨71, _⟩ => ⟨S1x256, .f32⟩
  | .hbm, ⟨72, _⟩ => ⟨S20000x256, .f32⟩
  | .hbm, ⟨73, _⟩ => ⟨S20000x256, .f32⟩
  | .hbm, ⟨74, _⟩ => ⟨S_, .f32⟩
  | .hbm, ⟨75, _⟩ => ⟨S20000x256, .f32⟩
  | .hbm, ⟨76, _⟩ => ⟨S20000x256, .f32⟩
  | .hbm, ⟨77, _⟩ => ⟨S_, .i32⟩
  | .hbm, ⟨78, _⟩ => ⟨S320000, .i32⟩
  | .hbm, ⟨79, _⟩ => ⟨S320000, .i1⟩
  | .hbm, ⟨80, _⟩ => ⟨S_, .i32⟩
  | .hbm, ⟨81, _⟩ => ⟨S320000, .i32⟩
  | .hbm, ⟨82, _⟩ => ⟨S320000, .i32⟩
  | .hbm, ⟨83, _⟩ => ⟨S320000, .i32⟩
  | .hbm, ⟨84, _⟩ => ⟨S320000x1, .i32⟩
  | .hbm, ⟨85, _⟩ => ⟨S320000x256, .f32⟩
  | .hbm, ⟨86, _⟩ => ⟨S_, .f32⟩
  | .hbm, ⟨87, _⟩ => ⟨S20000x256, .f32⟩
  | .hbm, ⟨88, _⟩ => ⟨S320000x1, .i32⟩
  | .hbm, ⟨89, _⟩ => ⟨S20000x256, .f32⟩
  | .hbm, ⟨90, _⟩ => ⟨S20000x256, .f32⟩
  | .hbm, ⟨91, _⟩ => ⟨S20000x256, .f32⟩
  | .hbm, ⟨92, _⟩ => ⟨S1x256, .f32⟩
  | .hbm, ⟨93, _⟩ => ⟨S20000x256, .f32⟩
  | .hbm, ⟨94, _⟩ => ⟨S20000x256, .f32⟩
  | .hbm, ⟨95, _⟩ => ⟨S_, .f32⟩
  | .hbm, ⟨96, _⟩ => ⟨S20000x256, .f32⟩
  | .hbm, ⟨97, _⟩ => ⟨S20000x256, .f32⟩
  | .hbm, ⟨98, _⟩ => ⟨S20000x256, .f32⟩
  | .hbm, ⟨99, _⟩ => ⟨S1x256, .f32⟩
  | .hbm, ⟨100, _⟩ => ⟨S20000x256, .f32⟩
  | .hbm, ⟨101, _⟩ => ⟨S20000x256, .f32⟩
  | .hbm, ⟨102, _⟩ => ⟨S_, .f32⟩
  | .hbm, ⟨103, _⟩ => ⟨S20000x256, .f32⟩
  | .hbm, ⟨104, _⟩ => ⟨S20000x256, .f32⟩
  | .hbm, ⟨105, _⟩ => ⟨S_, .f32⟩
  | .hbm, ⟨106, _⟩ => ⟨S64x256, .f32⟩
  | .hbm, ⟨107, _⟩ => ⟨S20000x1, .i32⟩
  | .hbm, ⟨108, _⟩ => ⟨S64x256, .f32⟩
  | .hbm, ⟨109, _⟩ => ⟨S64x10, .f32⟩
  | .hbm, ⟨110, _⟩ => ⟨S1x10, .f32⟩
  | .hbm, ⟨111, _⟩ => ⟨S64x10, .f32⟩
  | .hbm, ⟨112, _⟩ => ⟨S64x10, .f32⟩
  | .hbm, ⟨113, _⟩ => ⟨S_, .f32⟩
  | .hbm, ⟨114, _⟩ => ⟨S64, .f32⟩
  | .hbm, ⟨115, _⟩ => ⟨S_, .f32⟩
  | .hbm, ⟨116, _⟩ => ⟨S64, .f32⟩
  | .hbm, ⟨117, _⟩ => ⟨S64, .f32⟩
  | .hbm, ⟨118, _⟩ => ⟨S64x1, .f32⟩
  | .hbm, ⟨119, _⟩ => ⟨S64x10, .f32⟩
  | .hbm, ⟨120, _⟩ => ⟨S64x10, .f32⟩
  | .hbm, ⟨121, _⟩ => ⟨S64x10, .f32⟩
  | .hbm, ⟨122, _⟩ => ⟨S_, .f32⟩
  | .hbm, ⟨123, _⟩ => ⟨S64, .f32⟩
  | .hbm, ⟨124, _⟩ => ⟨S64x1, .f32⟩
  | .hbm, ⟨125, _⟩ => ⟨S64x1, .f32⟩
  | .hbm, ⟨126, _⟩ => ⟨S64x10, .f32⟩
  | .hbm, ⟨127, _⟩ => ⟨S64x10, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_cst : Ref sig .tc := ⟨.hbm, 46, rfl⟩
abbrev main_call1_v0 : Ref sig .tc := ⟨.hbm, 47, rfl⟩
abbrev main_v24 : Ref sig .tc := ⟨.hbm, 48, rfl⟩
abbrev main_c_1 : Ref sig .tc := ⟨.hbm, 49, rfl⟩
abbrev main_v25 : Ref sig .tc := ⟨.hbm, 50, rfl⟩
abbrev main_v26 : Ref sig .tc := ⟨.hbm, 51, rfl⟩
abbrev main_c_2 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_3 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_call2_cst : Ref sig .tc := ⟨.hbm, 67, rfl⟩
abbrev main_call2_v0 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_call3_cst : Ref sig .tc := ⟨.hbm, 74, rfl⟩
abbrev main_call3_v0 : Ref sig .tc := ⟨.hbm, 75, rfl⟩
abbrev main_v45 : Ref sig .tc := ⟨.hbm, 76, rfl⟩
abbrev main_c_4 : Ref sig .tc := ⟨.hbm, 77, rfl⟩
abbrev main_v46 : Ref sig .tc := ⟨.hbm, 78, rfl⟩
abbrev main_v47 : Ref sig .tc := ⟨.hbm, 79, rfl⟩
abbrev main_c_5 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_6 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_call4_cst : Ref sig .tc := ⟨.hbm, 95, rfl⟩
abbrev main_call4_v0 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_call5_cst : Ref sig .tc := ⟨.hbm, 102, rfl⟩
abbrev main_call5_v0 : Ref sig .tc := ⟨.hbm, 103, rfl⟩
abbrev main_v66 : Ref sig .tc := ⟨.hbm, 104, rfl⟩
abbrev main_cst_7 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_call6_cst : Ref sig .tc := ⟨.hbm, 113, rfl⟩
abbrev main_call6_v0 : Ref sig .tc := ⟨.hbm, 114, rfl⟩
abbrev main_call6_cst_0 : Ref sig .tc := ⟨.hbm, 115, rfl⟩
abbrev main_call6_v1 : Ref sig .tc := ⟨.hbm, 116, rfl⟩
abbrev main_call6_v2 : Ref sig .tc := ⟨.hbm, 117, rfl⟩
abbrev main_call6_v3 : Ref sig .tc := ⟨.hbm, 118, rfl⟩
abbrev main_call6_v4 : Ref sig .tc := ⟨.hbm, 119, rfl⟩
abbrev main_call6_v5 : Ref sig .tc := ⟨.hbm, 120, rfl⟩
abbrev main_call6_v6 : Ref sig .tc := ⟨.hbm, 121, rfl⟩
abbrev main_call6_cst_1 : Ref sig .tc := ⟨.hbm, 122, rfl⟩
abbrev main_call6_v7 : Ref sig .tc := ⟨.hbm, 123, rfl⟩
abbrev main_call6_v8 : Ref sig .tc := ⟨.hbm, 124, rfl⟩
abbrev main_call6_v9 : Ref sig .tc := ⟨.hbm, 125, rfl⟩
abbrev main_call6_v10 : Ref sig .tc := ⟨.hbm, 126, rfl⟩
abbrev main_v74 : Ref sig .tc := ⟨.hbm, 127, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x128 : S_.BroadcastsInDim S20000x128 (![] : Fin 0 → Fin S20000x128.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  bcast_S_S64x256 : S_.BroadcastsInDim S64x256 (![] : Fin 0 → Fin S64x256.rank)
  bcast_S20000_S20000x1_0 : S20000.BroadcastsInDim S20000x1 (![0] : Fin 1 → Fin S20000x1.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x10_0_1 : S64x1.BroadcastsInDim S64x10 (![0, 1] : Fin 2 → Fin S64x10.rank)
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  dot_S20000x128_S128x256_S20000x256_1_0_0_1_n_n_wf : DotDims.WF S20000x128 S128x256 S20000x256 [1] [0] [0] [1] [] []
  dot_S20000x256_S256x256_S20000x256_1_0_0_1_n_n_wf : DotDims.WF S20000x256 S256x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S64x256_S20000x1_S20000x256_1_0_0_1_wf : ScatterDims.WF S64x256 S20000x1 S20000x256 [1] [0] [0] 1
  dot_S64x256_S256x10_S64x10_1_0_0_1_n_n_wf : DotDims.WF S64x256 S256x10 S64x10 [1] [0] [0] [1] [] []

variable [Facts₀]

def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S64x256_S20000x1_S20000x256_1_0_0_1 : ScatterDims S64x256 S20000x1 S20000x256 where
  updateWindowDims := [1]
  insertedWindowDims := [0]
  scatterDimsToOperandDims := [0]
  indexVectorDim := 1
  wf := scatter_S64x256_S20000x1_S20000x256_1_0_0_1_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

class Facts : Prop extends Facts₀ where

variable [Facts]
-- ==== Proof.KernelRun.lean ====
/-
  The idealized kernel program's run with its RESULT named.

  The program is eight segments: a stretch of host operations (the edge rows are cut out of the edge list, the
  neighbours' rows are gathered and summed into their targets, the sum is added to the features, the two bias vectors
  are laid out as rows), the first perceptron region, the same again for the second and third layers, and a closing
  stretch (the node rows are summed per graph, a last linear layer, the row-wise log-softmax). Every weakly fair
  execution ends with every buffer at the value the fold of these segments gives it; in particular the result buffer
  ends at that fold's value `W8 … main_v53`, and the arguments end as they were launched.
-/
import proofs.«116536_j8546984919141_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer then holds the value the segments'
    fold gives it, and every argument array is as launched. -/
theorem run : θ_run defs (onTc (τ := τ) (main (F := F))) ⟨m, fun _ => 0, ρ⟩ (fun r => ∀ c : Dev nD,
      r.2.mem ((c.tc : Thread nD τ).loc main_v53) = W8 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v53 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c)⟩)

end Cert.KernelIdeal.Result

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibGinMlp.lean ====
/-
  A two-layer rectified perceptron applied to every row of an array, on the extended reals, over any extents:
  `mlp x Wa ba Wb bb = max (max (x Wa + ba, 0) Wb + bb, 0)`, the biases one-row arrays added to every row.

  Row `p` of the result depends on row `p` of `x` only, so a block of rows computed from the same block of rows of
  `x` is that block of the whole (`mlp_rows`). Two programs' spellings of it are this one function: the vector unit's
  (operands narrowed to half precision — the identity on the extended reals —, two matrix products into zero accumulators,
  each followed by a broadcast row, an addition and a maximum with a zero splat) and the host's (two dot products, each
  followed by the bias vector broadcast to a row and the row to every row, an addition and a maximum with a broadcast
  scalar zero).
-/
import proofs.«116536_j8546984919141_1_alg».proof.Proof.LibDense

noncomputable section

open scoped BigOperators

namespace Cert.GinMlp

open Idealize.ShloMosaic Idealize.ShloMosaic.ValueIdx Cert.Dense

/-- The two-layer rectified perceptron, row by row. -/
def mlp {M K N P : ℕ} (x : Mat M K) (wa : Mat K N) (ba : Mat 1 N) (wb : Mat N P) (bb : Mat 1 P) : Mat M P :=
  act (act x wa ba) wb bb

/-- Row `p'` of the perceptron of `x'` is row `p` of the perceptron of `x` when the two rows of the inputs agree. -/
theorem mlp_rows {M M' K N P : ℕ} (x : Mat M K) (x' : Mat M' K) (wa : Mat K N) (ba : Mat 1 N) (wb : Mat N P)
    (bb : Mat 1 P) (p : Fin M) (p' : Fin M') (hx : ∀ k, x' (ix2 p' k) = x (ix2 p k)) (q : Fin P) :
    mlp x' wa ba wb bb (ix2 p' q) = mlp x wa ba wb bb (ix2 p q) := by
  unfold mlp
  rw [act_apply, act_apply]
  simp only [act_rows x x' wa ba p p' hx]

/-- The same at two indices given as such: the column is shared and the two rows of the inputs agree. -/
theorem mlp_congr {M M' K N P : ℕ} (x : Mat M K) (x' : Mat M' K) (wa : Mat K N) (ba : Mat 1 N) (wb : Mat N P)
    (bb : Mat 1 P) (i : (⟨2, ![M, P]⟩ : Shape).Idx) (i' : (⟨2, ![M', P]⟩ : Shape).Idx)
    (hq : (i' 1).val = (i 1).val) (hx : ∀ k, x' (ix2 (c0 i') k) = x (ix2 (c0 i) k)) :
    mlp x' wa ba wb bb i' = mlp x wa ba wb bb i := by
  obtain ⟨p, q, rfl⟩ : ∃ (p : Fin M) (q : Fin P), i = ix2 p q := ⟨i 0, i 1, eq_ix2 i⟩
  obtain ⟨p', q', rfl⟩ : ∃ (p' : Fin M') (q' : Fin P), i' = ix2 p' q' := ⟨i' 0, i' 1, eq_ix2 i'⟩
  have hqq : q' = q := Fin.ext hq
  rw [hqq]
  exact mlp_rows x x' wa ba wb bb p p' hx q

/-- The vector unit's spelling is the perceptron. -/
theorem vec_eq {M K N P : ℕ}
    (D1 : DotDims ⟨2, ![M, K]⟩ ⟨2, ![K, N]⟩ ⟨2, ![M, N]⟩)
    (a1 : D1.lhsContracting = [1]) (a2 : D1.rhsContracting = [0]) (a3 : D1.lhsNonContracting = [0])
    (a4 : D1.rhsNonContracting = [1]) (a5 : D1.lhsBatch = []) (a6 : D1.rhsBatch = [])
    (D2 : DotDims ⟨2, ![M, N]⟩ ⟨2, ![N, P]⟩ ⟨2, ![M, P]⟩)
    (b1 : D2.lhsContracting = [1]) (b2 : D2.rhsContracting = [0]) (b3 : D2.lhsNonContracting = [0])
    (b4 : D2.rhsNonContracting = [1]) (b5 : D2.lhsBatch = []) (b6 : D2.rhsBatch = [])
    (x : FVec Ideal ⟨2, ![M, K]⟩ .f32) (wa : FVec Ideal ⟨2, ![K, N]⟩ .f32) (ba : FVec Ideal ⟨2, ![1, N]⟩ .f32)
    (wb : FVec Ideal ⟨2, ![N, P]⟩ .f32) (bb : FVec Ideal ⟨2, ![1, P]⟩ .f32)
    (hx : (⟨2, ![M, K]⟩ : Shape).ShapeCasts ⟨2, ![M, K]⟩)
    (hba : (⟨2, ![1, N]⟩ : Shape).ShapeCasts ⟨2, ![1, N]⟩) (hbb : (⟨2, ![1, P]⟩ : Shape).ShapeCasts ⟨2, ![1, P]⟩)
    (hN : (⟨2, ![1, N]⟩ : Shape).Broadcasts ⟨2, ![M, N]⟩) (hP : (⟨2, ![1, P]⟩ : Shape).Broadcasts ⟨2, ![M, P]⟩)
    (hbits : (FTy.bf16).bits < (FTy.f32).bits) :
    maximumf (addf (matmul D2 none
        (truncf .bf16 (maximumf (addf (matmul D1 none (truncf .bf16 (shapeCast ⟨2, ![M, K]⟩ x hx) hbits) (truncf .bf16 wa hbits)
            (constant ⟨2, ![M, N]⟩ .f32 0x00000000#32)) (broadcastTo ⟨2, ![M, N]⟩ (shapeCast ⟨2, ![1, N]⟩ ba hba) hN))
          (broadcast ⟨2, ![M, N]⟩ (Scalar.ofBits (F := Ideal) .f32 0x00000000#32))) hbits)
        (truncf .bf16 wb hbits) (constant ⟨2, ![M, P]⟩ .f32 0x00000000#32))
        (broadcastTo ⟨2, ![M, P]⟩ (shapeCast ⟨2, ![1, P]⟩ bb hbb) hP))
      (broadcast ⟨2, ![M, P]⟩ (Scalar.ofBits (F := Ideal) .f32 0x00000000#32))
      = mlp x wa ba wb bb := by
  rw [shapeCast_self, shapeCast_self, shapeCast_self]
  rw [matmul_zero_eq_mm D1 a1 a2 a3 a4 a5 a6, vecReluBias, matmul_zero_eq_mm D2 b1 b2 b3 b4 b5 b6, vecReluBias]
  rfl

/-- The host's spelling is the perceptron of the bias vectors laid out as rows. -/
theorem host_eq {M K N P : ℕ}
    (D1 : DotDims ⟨2, ![M, K]⟩ ⟨2, ![K, N]⟩ ⟨2, ![M, N]⟩)
    (a1 : D1.lhsContracting = [1]) (a2 : D1.rhsContracting = [0]) (a3 : D1.lhsNonContracting = [0])
    (a4 : D1.rhsNonContracting = [1]) (a5 : D1.lhsBatch = []) (a6 : D1.rhsBatch = [])
    (D2 : DotDims ⟨2, ![M, N]⟩ ⟨2, ![N, P]⟩ ⟨2, ![M, P]⟩)
    (b1 : D2.lhsContracting = [1]) (b2 : D2.rhsContracting = [0]) (b3 : D2.lhsNonContracting = [0])
    (b4 : D2.rhsNonContracting = [1]) (b5 : D2.lhsBatch = []) (b6 : D2.rhsBatch = [])
    (x : FVec Ideal ⟨2, ![M, K]⟩ .f32) (wa : FVec Ideal ⟨2, ![K, N]⟩ .f32) (ba : FVec Ideal ⟨1, ![N]⟩ .f32)
    (wb : FVec Ideal ⟨2, ![N, P]⟩ .f32) (bb : FVec Ideal ⟨1, ![P]⟩ .f32)
    (n1 : (⟨1, ![N]⟩ : Shape).BroadcastsInDim ⟨2, ![1, N]⟩ ![1])
    (n2 : (⟨2, ![1, N]⟩ : Shape).BroadcastsInDim ⟨2, ![M, N]⟩ ![0, 1])
    (n0 : (⟨0, ![]⟩ : Shape).BroadcastsInDim ⟨2, ![M, N]⟩ ![])
    (p1 : (⟨1, ![P]⟩ : Shape).BroadcastsInDim ⟨2, ![1, P]⟩ ![1])
    (p2 : (⟨2, ![1, P]⟩ : Shape).BroadcastsInDim ⟨2, ![M, P]⟩ ![0, 1])
    (p0 : (⟨0, ![]⟩ : Shape).BroadcastsInDim ⟨2, ![M, P]⟩ ![]) :
    maximumf (addf (Host.dotGeneral (F := Ideal) D2 none
        (maximumf (addf (Host.dotGeneral (F := Ideal) D1 none x wa)
            (broadcastInDim ⟨2, ![M, N]⟩ ![0, 1] n2 (broadcastInDim ⟨2, ![1, N]⟩ ![1] n1 ba)))
          (broadcastInDim ⟨2, ![M, N]⟩ ![] n0 (constant (F := Ideal) ⟨0, ![]⟩ .f32 0x00000000#32)))
        wb)
        (broadcastInDim ⟨2, ![M, P]⟩ ![0, 1] p2 (broadcastInDim ⟨2, ![1, P]⟩ ![1] p1 bb)))
      (broadcastInDim ⟨2, ![M, P]⟩ ![] p0 (constant (F := Ideal) ⟨0, ![]⟩ .f32 0x00000000#32))
      = mlp x wa (row ba) wb (row bb) := by
  rw [hostDot_eq_mm D1 a1 a2 a3 a4 a5 a6, hostReluBias, hostDot_eq_mm D2 b1 b2 b3 b4 b5 b6, hostReluBias]
  rfl

end Cert.GinMlp

end
-- ==== Proof.Region0.lean ====
/-
  Region 0 of the idealized kernel program: what its output array holds when the region is left, as ONE function of
  the arrays the region finds when it is entered — whatever those are.

  The grid has ten points; point `t` loads rows `2000 t … 2000 t + 1999` of the node features, the two weight
  matrices and the two bias rows whole, and stores the two-layer rectified perceptron of its block of rows. Row `p`
  of a perceptron depends on row `p` of the features only, so what point `t` writes back is block `t` of the
  perceptron of the WHOLE feature array; the ten blocks tile the output, so the output array ends as that perceptron.
-/
import proofs.«116536_j8546984919141_1_alg».proof.Proof.Gen.KernelIdeal.Frame
import proofs.«116536_j8546984919141_1_alg».proof.Proof.LibGinMlp

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Dense Cert.GinMlp

variable (V : (c : Dev nD) → (b : Ref sig .tc) → Buf (Elt Ideal) ((c : Thread nD τ).loc b))

theorem hz : (![0, 0] : Fin 2 → Nat) = fun _ => 0 := funext fun a => by fin_cases a <;> rfl

/-- The body's stored value is the perceptron of its loaded blocks: narrowing to half precision is the identity on the
    extended reals, and each matrix product into a zero accumulator is the plain matrix product. -/
theorem pay_eq (x0 : Vec Ideal S2000x128 .f32) (x1 : Vec Ideal S128x256 .f32) (x2 : Vec Ideal S1x256 .f32)
    (x3 : Vec Ideal S256x256 .f32) (x4 : Vec Ideal S1x256 .f32) :
    k0_pay1 (F := Ideal) x0 x1 x2 x3 x4 = mlp x0 x1 x2 x3 x4 := by
  unfold k0_pay1
  exact vec_eq dot_S2000x128_S128x256_S2000x256_1_0_0_1_n_n rfl rfl rfl rfl rfl rfl
    dot_S2000x256_S256x256_S2000x256_1_0_0_1_n_n rfl rfl rfl rfl rfl rfl x0 x1 x2 x3 x4 _ _ _ _ _ _

/-- The printed index maps, decided over the ten points: the feature and output windows move down by one block per
    point, the weights and biases stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 10 :=
  (by decide +kernel : ∀ t : Fin grid0.N, _)

/-- WHAT POINT `t` WRITES BACK is block `t` of the perceptron of the whole arrays the region finds. -/
theorem flushed_eq (c : Dev nD) (t : Fin cfg0.N) :
    (dat0 V c).flushed 5 t = ((cfg0.win 5).blk t).view.read (Elt Ideal)
      (mlp (V c main_v14) (V c main_arg3) (V c main_v15) (V c main_arg5) (V c main_v16)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz,
    View.ld_unit_zero (S := S256x256) hz]
  rw [pay_eq]
  obtain ⟨e00, e01, e10, e11, e20, e21, e30, e31, e40, e41, e50, e51, -⟩ := idx_facts t
  have b1 : iblk0 V c 1 t = V c main_arg3 := by
    funext y
    show V c main_arg3 (((cfg0.win 1).blk t).view.emb y) = V c main_arg3 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 256 + 1 * (y 1).val = (y 1).val; omega
  have b2 : iblk0 V c 2 t = V c main_v15 := by
    funext y
    show V c main_v15 (((cfg0.win 2).blk t).view.emb y) = V c main_v15 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 256 + 1 * (y 1).val = (y 1).val; omega
  have b3 : iblk0 V c 3 t = V c main_arg5 := by
    funext y
    show V c main_arg5 (((cfg0.win 3).blk t).view.emb y) = V c main_arg5 y
    refine congrArg _ (funext fun a => Fin.ext ?_)
    match a with
    | ⟨0, _⟩ => show win0_3.index t (0 : Fin 2) * 256 + 1 * (y 0).val = (y 0).val; omega
    | ⟨1, _⟩ => show win0_3.index t (1 : Fin 2) * 256 + 1 * (y 1).val = (y 1).val; omega
  have b4 : iblk0 V c 4 t = V c main_v16 := by
    funext y
    show V c main_v16 (((cfg0.win 4).blk t).view.emb y) = V c main_v16 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 256 + 1 * (y 1).val = (y 1).val; omega
  rw [b1, b2, b3, b4]
  funext j
  show mlp (iblk0 V c 0 t) (V c main_arg3) (V c main_v15) (V c main_arg5) (V c main_v16) j
    = mlp (V c main_v14) (V c main_arg3) (V c main_v15) (V c main_arg5) (V c main_v16) (((cfg0.win 5).blk t).view.emb j)
  refine mlp_congr (V c main_v14) (iblk0 V c 0 t) (V c main_arg3) (V c main_v15) (V c main_arg5) (V c main_v16) _ j ?_ ?_
  · show (j 1).val = win0_5.index t (1 : Fin 2) * 256 + 1 * (j 1).val
    omega
  · intro k
    show V c main_v14 (((cfg0.win 0).blk t).view.emb (ix2 (c0 j) k)) = V c main_v14 (ix2 (c0 (((cfg0.win 5).blk t).view.emb j)) k)
    refine congrArg _ (funext fun a => Fin.ext ?_)
    match a with
    | ⟨0, _⟩ =>
      show win0_0.index t (0 : Fin 2) * 2000 + 1 * (j 0).val = win0_5.index t (0 : Fin 2) * 2000 + 1 * (j 0).val
      omega
    | ⟨1, _⟩ =>
      show win0_0.index t (1 : Fin 2) * 128 + 1 * k.val = k.val
      omega

/-- An index of the output array is in point `t`'s block iff each coordinate is in the block's range on its axis. -/
theorem mem_blk (t : Fin cfg0.N) (i : S20000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v17).slice (win0_5.rect t)).set ↔ _
  rw [View.set_slice_whole, Rect.mem_set_unit]
  exact Iff.rfl

/-- Row `r` of the output lies in the block of point `r / 2000`. -/
theorem cover (i : S20000x256.Idx) :
    ∃ t : Fin cfg0.N, (cfg0.win 5).flush t = true ∧ i ∈ ((cfg0.win 5).blk t).view.set := by
  have hi0 : (i 0).val < 20000 := (i 0).isLt
  have hi1 : (i 1).val < 256 := (i 1).isLt
  obtain ⟨t, ht⟩ : ∃ t : Fin cfg0.N, t.val = (i 0).val / 2000 :=
    ⟨⟨(i 0).val / 2000, by rw [show cfg0.N = 10 from N_0]; omega⟩, rfl⟩
  obtain ⟨-, -, -, -, -, -, -, -, -, -, e50, e51, -⟩ := idx_facts t
  refine ⟨t, flush0_5 t, ?_⟩
  rw [mem_blk]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 256 ≤ (i 1).val ∧ (i 1).val < win0_5.index t (1 : Fin 2) * 256 + 256
    omega

/-- THE OUTPUT ARRAY when the region is left: the perceptron of the arrays the region found. -/
theorem arr (c : Dev nD) :
    (dat0 V c).arrAt 5 cfg0.N = mlp (V c main_v14) (V c main_arg3) (V c main_v15) (V c main_arg5) (V c main_v16) :=
  (dat0 V c).arrAt_eq_of_cover 5 _ (fun t _ => flushed_eq V c t) cover

end Cert.KernelIdeal.Region0

end
-- ==== Proof.Chain0.lean ====
/-
  The first layer of the idealized kernel program, read back to the arguments.

  The opening stretch of host operations leaves the neighbour-summed features `x + Σ_{edges into a node} x[source]`, the two
  edge rows, and the first layer's bias vectors laid out as rows; the first region leaves the two-layer rectified
  perceptron of the neighbour-summed features. The reference computes the same neighbour-summed features by the same operations and
  the same perceptron by two dot products, two broadcast biases and two maxima with zero: one function of the arguments.
-/
import proofs.«116536_j8546984919141_1_alg».proof.Proof.Region0
import proofs.«116536_j8546984919141_1_alg».proof.Proof.Gen.ReferenceIdeal.Read

set_option maxRecDepth 16384

noncomputable section

namespace Cert.Bridge

open Cert.KernelIdeal Cert.KernelIdeal.Gen
open Idealize.ShloMosaic Idealize.ShloMosaic.TcCoe Idealize.SL.Sem Idealize.ShloMosaic.ValueIdx
open Cert.Dense Cert.GinMlp

/-- The reference's first layer is the perceptron of its neighbour-summed features. -/
theorem ref_layer1 (x0 : (⟨Cert.ReferenceIdeal.S20000x128, .f32⟩ : BufTy).Contents (Elt Ideal))
    (x1 : (⟨Cert.ReferenceIdeal.S2x320000, .i32⟩ : BufTy).Contents (Elt Ideal))
    (x3 : (⟨Cert.ReferenceIdeal.S128x256, .f32⟩ : BufTy).Contents (Elt Ideal))
    (x4 : (⟨Cert.ReferenceIdeal.S256, .f32⟩ : BufTy).Contents (Elt Ideal))
    (x5 : (⟨Cert.ReferenceIdeal.S256x256, .f32⟩ : BufTy).Contents (Elt Ideal))
    (x6 : (⟨Cert.ReferenceIdeal.S256, .f32⟩ : BufTy).Contents (Elt Ideal)) :
    Cert.ReferenceIdeal.Read.val_main_v24 (F := Ideal) x0 x1 x3 x4 x5 x6
      = mlp (Cert.ReferenceIdeal.Read.val_main_v14 (F := Ideal) x0 x1) x3 (row x4) x5 (row x6) := by
  unfold Cert.ReferenceIdeal.Read.val_main_v24 Cert.ReferenceIdeal.Read.val_main_v23 Cert.ReferenceIdeal.Read.val_main_v20
    Cert.ReferenceIdeal.Read.val_main_v19 Cert.ReferenceIdeal.Read.val_main_v18 Cert.ReferenceIdeal.Read.val_main_v15
    Cert.ReferenceIdeal.Read.val_main_v17 Cert.ReferenceIdeal.Read.val_main_v16 Cert.ReferenceIdeal.Read.val_main_v22
    Cert.ReferenceIdeal.Read.val_main_v21 Cert.ReferenceIdeal.Read.val_main_call0_v0 Cert.ReferenceIdeal.Read.val_main_call0_cst
    Cert.ReferenceIdeal.Read.val_main_call1_v0 Cert.ReferenceIdeal.Read.val_main_call1_cst
  exact host_eq Cert.ReferenceIdeal.dot_S20000x128_S128x256_S20000x256_1_0_0_1_n_n rfl rfl rfl rfl rfl rfl
    Cert.ReferenceIdeal.dot_S20000x256_S256x256_S20000x256_1_0_0_1_n_n rfl rfl rfl rfl rfl rfl _ x3 x4 x5 x6 _ _ _ _ _ _

variable (m : (ℓ : Loc nD τ sig) → Buf (Elt Ideal) ℓ) (ρ : Dev nD → PrngReg) (c : Dev nD)

/-! ## The opening stretch -/

theorem s0_v14 : W1 m ρ c (Proc.devRef .tc main_v14)
    = Cert.ReferenceIdeal.Read.val_main_v14 (F := Ideal) (m ((c : Thread nD τ).loc main_arg0)) (m ((c : Thread nD τ).loc main_arg1)) := by
  show StableHlo.after hostOps0 (W0 m ρ c) (Proc.devRef .tc main_v14) = _
  after_results_simp
  rfl

theorem s0_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp
  rfl

theorem s0_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  rfl

theorem s0_v15 : W1 m ρ c (Proc.devRef .tc main_v15) = row (m ((c : Thread nD τ).loc main_arg4)) := by
  show StableHlo.after hostOps0 (W0 m ρ c) (Proc.devRef .tc main_v15) = _
  after_results_simp
  exact shapeCast_row _ _

theorem s0_v16 : W1 m ρ c (Proc.devRef .tc main_v16) = row (m ((c : Thread nD τ).loc main_arg6)) := by
  show StableHlo.after hostOps0 (W0 m ρ c) (Proc.devRef .tc main_v16) = _
  after_results_simp
  exact shapeCast_row _ _

theorem s0_arg (k : Ref sig .tc) (hk : k = main_arg3 ∨ k = main_arg5 ∨ k = main_arg7 ∨ k = main_arg8 ∨ k = main_arg9 ∨ k = main_arg10
      ∨ k = main_arg11 ∨ k = main_arg12 ∨ k = main_arg13 ∨ k = main_arg14 ∨ k = main_arg2 ∨ k = main_arg15 ∨ k = main_arg16) :
    W1 m ρ c (Proc.devRef .tc k) = m ((c : Thread nD τ).loc k) := by
  rcases hk with rfl | rfl | rfl | rfl | rfl | rfl | rfl | rfl | rfl | rfl | rfl | rfl | rfl <;>
  · show StableHlo.after hostOps0 (W0 m ρ c) (Proc.devRef .tc _) = _
    after_results_simp <;> try rfl

/-! ## The first region -/

/-- The first region's output when it is left: the reference's first layer, as a function of the arguments. -/
theorem layer1 : W2 m ρ c (Proc.devRef .tc main_v17)
    = Cert.ReferenceIdeal.Read.val_main_v24 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W2_arr m ρ c 5).trans ?_
  rw [Cert.KernelIdeal.Region0.arr (V1 m ρ) c, ref_layer1]
  show mlp (W1 m ρ c (Proc.devRef .tc main_v14)) (W1 m ρ c (Proc.devRef .tc main_arg3)) (W1 m ρ c (Proc.devRef .tc main_v15))
      (W1 m ρ c (Proc.devRef .tc main_arg5)) (W1 m ρ c (Proc.devRef .tc main_v16)) = _
  rw [s0_v14, s0_v15, s0_v16, s0_arg m ρ c main_arg3 (by simp), s0_arg m ρ c main_arg5 (by simp)]

end Cert.Bridge

end
-- ==== Proof.Kept.lean ====
/-
  Buffers that later segments of the idealized kernel program read and no segment in between writes: the two edge rows
  cut out in the opening stretch, the batch vector, and the weights and biases of the later layers. Through a region
  they are none of its arrays; through a stretch of host operations they are none of its results; so each boundary's
  contents at such a buffer are the previous boundary's.
-/
import proofs.«116536_j8546984919141_1_alg».proof.Proof.Gen.KernelIdeal.Frame

set_option maxRecDepth 16384

noncomputable section

namespace Cert.Bridge

open Cert.KernelIdeal Cert.KernelIdeal.Gen
open Idealize.ShloMosaic Idealize.ShloMosaic.TcCoe Idealize.SL.Sem

/-- The buffers carried unchanged from the opening stretch through the first region and the stretch after it. -/
def Kept (k : Ref sig .tc) : Prop :=
  k = main_v1 ∨ k = main_v3 ∨ k = main_arg2 ∨ k = main_arg7 ∨ k = main_arg8 ∨ k = main_arg9 ∨ k = main_arg10 ∨ k = main_arg11 ∨ k = main_arg12 ∨ k = main_arg13 ∨ k = main_arg14 ∨ k = main_arg15 ∨ k = main_arg16

/-- Those carried on through the second region and the stretch after it. -/
def Kept4 (k : Ref sig .tc) : Prop :=
  k = main_v1 ∨ k = main_v3 ∨ k = main_arg2 ∨ k = main_arg11 ∨ k = main_arg12 ∨ k = main_arg13 ∨ k = main_arg14 ∨ k = main_arg15 ∨ k = main_arg16

/-- Those carried on through the third region, to the closing stretch. -/
def Kept6 (k : Ref sig .tc) : Prop :=
  k = main_arg2 ∨ k = main_arg15 ∨ k = main_arg16

theorem Kept4.kept {k : Ref sig .tc} (hk : Kept4 k) : Kept k := by
  rcases hk with rfl | rfl | rfl | rfl | rfl | rfl | rfl | rfl | rfl <;> (unfold Kept; decide)

theorem Kept6.kept4 {k : Ref sig .tc} (hk : Kept6 k) : Kept4 k := by
  rcases hk with rfl | rfl | rfl <;> (unfold Kept4; decide)

variable {F : FTy → Type} [FloatOps F]
variable (m : (ℓ : Loc nD τ sig) → Buf (Elt F) ℓ) (ρ : Dev nD → PrngReg) (c : Dev nD)

theorem keep2 (k : Ref sig .tc) (hk : Kept k) : W2 m ρ c (Proc.devRef .tc k) = W1 m ρ c (Proc.devRef .tc k) := by
  rcases hk with rfl | rfl | rfl | rfl | rfl | rfl | rfl | rfl | rfl | rfl | rfl | rfl | rfl <;> exact W2_of_ne m ρ c _ (by decide)

theorem keep3 (k : Ref sig .tc) (hk : Kept k) : W3 m ρ c (Proc.devRef .tc k) = W2 m ρ c (Proc.devRef .tc k) := by
  rcases hk with rfl | rfl | rfl | rfl | rfl | rfl | rfl | rfl | rfl | rfl | rfl | rfl | rfl <;>
  · show StableHlo.after hostOps1 (W2 m ρ c) (Proc.devRef .tc _) = _
    after_results_simp

theorem keep4 (k : Ref sig .tc) (hk : Kept4 k) : W4 m ρ c (Proc.devRef .tc k) = W3 m ρ c (Proc.devRef .tc k) := by
  rcases hk with rfl | rfl | rfl | rfl | rfl | rfl | rfl | rfl | rfl <;> exact W4_of_ne m ρ c _ (by decide)

theorem keep5 (k : Ref sig .tc) (hk : Kept4 k) : W5 m ρ c (Proc.devRef .tc k) = W4 m ρ c (Proc.devRef .tc k) := by
  rcases hk with rfl | rfl | rfl | rfl | rfl | rfl | rfl | rfl | rfl <;>
  · show StableHlo.after hostOps2 (W4 m ρ c) (Proc.devRef .tc _) = _
    after_results_simp

theorem keep6 (k : Ref sig .tc) (hk : Kept6 k) : W6 m ρ c (Proc.devRef .tc k) = W5 m ρ c (Proc.devRef .tc k) := by
  rcases hk with rfl | rfl | rfl <;> exact W6_of_ne m ρ c _ (by decide)

theorem at3 (k : Ref sig .tc) (hk : Kept k) : W3 m ρ c (Proc.devRef .tc k) = W1 m ρ c (Proc.devRef .tc k) :=
  (keep3 m ρ c k hk).trans (keep2 m ρ c k hk)

theorem at4 (k : Ref sig .tc) (hk : Kept4 k) : W4 m ρ c (Proc.devRef .tc k) = W1 m ρ c (Proc.devRef .tc k) :=
  (keep4 m ρ c k hk).trans (at3 m ρ c k hk.kept)

theorem at5 (k : Ref sig .tc) (hk : Kept4 k) : W5 m ρ c (Proc.devRef .tc k) = W1 m ρ c (Proc.devRef .tc k) :=
  (keep5 m ρ c k hk).trans (at4 m ρ c k hk)

theorem at6 (k : Ref sig .tc) (hk : Kept6 k) : W6 m ρ c (Proc.devRef .tc k) = W1 m ρ c (Proc.devRef .tc k) :=
  (keep6 m ρ c k hk).trans (at5 m ρ c k hk.kept4)

end Cert.Bridge

end
-- ==== Proof.Region1.lean ====
/-
  Region 1 of the idealized kernel program: what its output array holds when the region is left, as ONE function of
  the arrays the region finds when it is entered — whatever those are.

  The grid has ten points; point `t` loads rows `2000 t … 2000 t + 1999` of the node features, the two weight
  matrices and the two bias rows whole, and stores the two-layer rectified perceptron of its block of rows. Row `p`
  of a perceptron depends on row `p` of the features only, so what point `t` writes back is block `t` of the
  perceptron of the WHOLE feature array; the ten blocks tile the output, so the output array ends as that perceptron.
-/
import proofs.«116536_j8546984919141_1_alg».proof.Proof.Gen.KernelIdeal.Frame
import proofs.«116536_j8546984919141_1_alg».proof.Proof.LibGinMlp

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Dense Cert.GinMlp

variable (V : (c : Dev nD) → (b : Ref sig .tc) → Buf (Elt Ideal) ((c : Thread nD τ).loc b))

theorem hz : (![0, 0] : Fin 2 → Nat) = fun _ => 0 := funext fun a => by fin_cases a <;> rfl

/-- The body's stored value is the perceptron of its loaded blocks: narrowing to half precision is the identity on the
    extended reals, and each matrix product into a zero accumulator is the plain matrix product. -/
theorem pay_eq (x0 : Vec Ideal S2000x256 .f32) (x1 : Vec Ideal S256x256 .f32) (x2 : Vec Ideal S1x256 .f32)
    (x3 : Vec Ideal S256x256 .f32) (x4 : Vec Ideal S1x256 .f32) :
    k1_pay1 (F := Ideal) x0 x1 x2 x3 x4 = mlp x0 x1 x2 x3 x4 := by
  unfold k1_pay1
  exact vec_eq dot_S2000x256_S256x256_S2000x256_1_0_0_1_n_n rfl rfl rfl rfl rfl rfl
    dot_S2000x256_S256x256_S2000x256_1_0_0_1_n_n rfl rfl rfl rfl rfl rfl x0 x1 x2 x3 x4 _ _ _ _ _ _

/-- The printed index maps, decided over the ten points: the feature and output windows move down by one block per
    point, the weights and biases stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 10 :=
  (by decide +kernel : ∀ t : Fin grid1.N, _)

/-- WHAT POINT `t` WRITES BACK is block `t` of the perceptron of the whole arrays the region finds. -/
theorem flushed_eq (c : Dev nD) (t : Fin cfg1.N) :
    (dat1 V c).flushed 5 t = ((cfg1.win 5).blk t).view.read (Elt Ideal)
      (mlp (V c main_v28) (V c main_arg7) (V c main_v29) (V c main_arg9) (V c main_v30)) := by
  show (cfg1.win 5).cut (grid1.coords t) ((dat1 V c).after 5 t) = _
  rw [after1_5]
  unfold out1_5
  rw [View.canon_unit_zero hz]
  simp only [View.ld_unit_zero (S := S2000x256) hz, View.ld_unit_zero (S := S128x256) hz, View.ld_unit_zero (S := S1x256) hz,
    View.ld_unit_zero (S := S256x256) hz]
  rw [pay_eq]
  obtain ⟨e00, e01, e10, e11, e20, e21, e30, e31, e40, e41, e50, e51, -⟩ := idx_facts t
  have b1 : iblk1 V c 1 t = V c main_arg7 := by
    funext y
    show V c main_arg7 (((cfg1.win 1).blk t).view.emb y) = V c main_arg7 y
    refine congrArg _ (funext fun a => Fin.ext ?_)
    match a with
    | ⟨0, _⟩ => show win1_1.index t (0 : Fin 2) * 256 + 1 * (y 0).val = (y 0).val; omega
    | ⟨1, _⟩ => show win1_1.index t (1 : Fin 2) * 256 + 1 * (y 1).val = (y 1).val; omega
  have b2 : iblk1 V c 2 t = V c main_v29 := by
    funext y
    show V c main_v29 (((cfg1.win 2).blk t).view.emb y) = V c main_v29 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 256 + 1 * (y 1).val = (y 1).val; omega
  have b3 : iblk1 V c 3 t = V c main_arg9 := by
    funext y
    show V c main_arg9 (((cfg1.win 3).blk t).view.emb y) = V c main_arg9 y
    refine congrArg _ (funext fun a => Fin.ext ?_)
    match a with
    | ⟨0, _⟩ => show win1_3.index t (0 : Fin 2) * 256 + 1 * (y 0).val = (y 0).val; omega
    | ⟨1, _⟩ => show win1_3.index t (1 : Fin 2) * 256 + 1 * (y 1).val = (y 1).val; omega
  have b4 : iblk1 V c 4 t = V c main_v30 := by
    funext y
    show V c main_v30 (((cfg1.win 4).blk t).view.emb y) = V c main_v30 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 256 + 1 * (y 1).val = (y 1).val; omega
  rw [b1, b2, b3, b4]
  funext j
  show mlp (iblk1 V c 0 t) (V c main_arg7) (V c main_v29) (V c main_arg9) (V c main_v30) j
    = mlp (V c main_v28) (V c main_arg7) (V c main_v29) (V c main_arg9) (V c main_v30) (((cfg1.win 5).blk t).view.emb j)
  refine mlp_congr (V c main_v28) (iblk1 V c 0 t) (V c main_arg7) (V c main_v29) (V c main_arg9) (V c main_v30) _ j ?_ ?_
  · show (j 1).val = win1_5.index t (1 : Fin 2) * 256 + 1 * (j 1).val
    omega
  · intro k
    show V c main_v28 (((cfg1.win 0).blk t).view.emb (ix2 (c0 j) k)) = V c main_v28 (ix2 (c0 (((cfg1.win 5).blk t).view.emb j)) k)
    refine congrArg _ (funext fun a => Fin.ext ?_)
    match a with
    | ⟨0, _⟩ =>
      show win1_0.index t (0 : Fin 2) * 2000 + 1 * (j 0).val = win1_5.index t (0 : Fin 2) * 2000 + 1 * (j 0).val
      omega
    | ⟨1, _⟩ =>
      show win1_0.index t (1 : Fin 2) * 256 + 1 * k.val = k.val
      omega

/-- An index of the output array is in point `t`'s block iff each coordinate is in the block's range on its axis. -/
theorem mem_blk (t : Fin cfg1.N) (i : S20000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v31).slice (win1_5.rect t)).set ↔ _
  rw [View.set_slice_whole, Rect.mem_set_unit]
  exact Iff.rfl

/-- Row `r` of the output lies in the block of point `r / 2000`. -/
theorem cover (i : S20000x256.Idx) :
    ∃ t : Fin cfg1.N, (cfg1.win 5).flush t = true ∧ i ∈ ((cfg1.win 5).blk t).view.set := by
  have hi0 : (i 0).val < 20000 := (i 0).isLt
  have hi1 : (i 1).val < 256 := (i 1).isLt
  obtain ⟨t, ht⟩ : ∃ t : Fin cfg1.N, t.val = (i 0).val / 2000 :=
    ⟨⟨(i 0).val / 2000, by rw [show cfg1.N = 10 from N_1]; omega⟩, rfl⟩
  obtain ⟨-, -, -, -, -, -, -, -, -, -, e50, e51, -⟩ := idx_facts t
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 256 ≤ (i 1).val ∧ (i 1).val < win1_5.index t (1 : Fin 2) * 256 + 256
    omega

/-- THE OUTPUT ARRAY when the region is left: the perceptron of the arrays the region found. -/
theorem arr (c : Dev nD) :
    (dat1 V c).arrAt 5 cfg1.N = mlp (V c main_v28) (V c main_arg7) (V c main_v29) (V c main_arg9) (V c main_v30) :=
  (dat1 V c).arrAt_eq_of_cover 5 _ (fun t _ => flushed_eq V c t) cover

end Cert.KernelIdeal.Region1

end
-- ==== Proof.Chain1.lean ====
/-
  Layer 2 of the idealized kernel program, read back to the arguments.

  The stretch of host operations before the region gathers the previous layer's rows along the edges, sums them into
  their target nodes and adds the sum to the previous layer's output — on the same edge rows the opening stretch cut out —,
  and lays the layer's two bias vectors out as rows; the region leaves the two-layer rectified perceptron of that array.
  The reference computes both by the same operations on the same operands: one function of the arguments.
-/
import proofs.«116536_j8546984919141_1_alg».proof.Proof.Chain0
import proofs.«116536_j8546984919141_1_alg».proof.Proof.Kept
import proofs.«116536_j8546984919141_1_alg».proof.Proof.Region1

set_option maxRecDepth 16384

noncomputable section

namespace Cert.Bridge

open Cert.KernelIdeal Cert.KernelIdeal.Gen
open Idealize.ShloMosaic Idealize.ShloMosaic.TcCoe Idealize.SL.Sem Idealize.ShloMosaic.ValueIdx
open Cert.Dense Cert.GinMlp

/-- The reference's layer is the perceptron of its neighbour-summed input. -/
theorem ref_layer2 (x0 : (⟨Cert.ReferenceIdeal.S20000x128, .f32⟩ : BufTy).Contents (Elt Ideal)) (x1 : (⟨Cert.ReferenceIdeal.S2x320000, .i32⟩ : BufTy).Contents (Elt Ideal)) (x3 : (⟨Cert.ReferenceIdeal.S128x256, .f32⟩ : BufTy).Contents (Elt Ideal)) (x4 : (⟨Cert.ReferenceIdeal.S256, .f32⟩ : BufTy).Contents (Elt Ideal)) (x5 : (⟨Cert.ReferenceIdeal.S256x256, .f32⟩ : BufTy).Contents (Elt Ideal)) (x6 : (⟨Cert.ReferenceIdeal.S256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal)) (x9 : (⟨Cert.ReferenceIdeal.S256x256, .f32⟩ : BufTy).Contents (Elt Ideal)) (x10 : (⟨Cert.ReferenceIdeal.S256, .f32⟩ : BufTy).Contents (Elt Ideal)) :
    Cert.ReferenceIdeal.Read.val_main_v45 (F := Ideal) x0 x1 x3 x4 x5 x6 x7 x8 x9 x10
      = mlp (Cert.ReferenceIdeal.Read.val_main_v35 (F := Ideal) x0 x1 x3 x4 x5 x6) x7 (row x8) x9 (row x10) := by
  unfold Cert.ReferenceIdeal.Read.val_main_v45 Cert.ReferenceIdeal.Read.val_main_v44 Cert.ReferenceIdeal.Read.val_main_v41 Cert.ReferenceIdeal.Read.val_main_v40 Cert.ReferenceIdeal.Read.val_main_v39 Cert.ReferenceIdeal.Read.val_main_v36 Cert.ReferenceIdeal.Read.val_main_v38 Cert.ReferenceIdeal.Read.val_main_v37 Cert.ReferenceIdeal.Read.val_main_v43 Cert.ReferenceIdeal.Read.val_main_v42 Cert.ReferenceIdeal.Read.val_main_call2_v0 Cert.ReferenceIdeal.Read.val_main_call2_cst Cert.ReferenceIdeal.Read.val_main_call3_v0 Cert.ReferenceIdeal.Read.val_main_call3_cst
  exact host_eq Cert.ReferenceIdeal.dot_S20000x256_S256x256_S20000x256_1_0_0_1_n_n rfl rfl rfl rfl rfl rfl
    Cert.ReferenceIdeal.dot_S20000x256_S256x256_S20000x256_1_0_0_1_n_n rfl rfl rfl rfl rfl rfl _ x7 x8 x9 x10 _ _ _ _ _ _

variable (m : (ℓ : Loc nD τ sig) → Buf (Elt Ideal) ℓ) (ρ : Dev nD → PrngReg) (c : Dev nD)

/-- The neighbour-summed input of layer 2. -/
theorem s1_in : W3 m ρ c (Proc.devRef .tc main_v28)
    = Cert.ReferenceIdeal.Read.val_main_v35 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v28) = _
  after_results_simp
  rw [layer1 m ρ c, keep2 m ρ c main_v1 (by unfold Kept; decide), keep2 m ρ c main_v3 (by unfold Kept; decide), s0_v1, s0_v3]
  rfl

theorem s1_ba : W3 m ρ c (Proc.devRef .tc main_v29) = row (m ((c : Thread nD τ).loc main_arg8)) := by
  show StableHlo.after hostOps1 (W2 m ρ c) (Proc.devRef .tc main_v29) = _
  after_results_simp
  rw [keep2 m ρ c main_arg8 (by unfold Kept; decide), s0_arg m ρ c main_arg8 (by simp)]
  exact shapeCast_row _ _

theorem s1_bb : W3 m ρ c (Proc.devRef .tc main_v30) = row (m ((c : Thread nD τ).loc main_arg10)) := by
  show StableHlo.after hostOps1 (W2 m ρ c) (Proc.devRef .tc main_v30) = _
  after_results_simp
  rw [keep2 m ρ c main_arg10 (by unfold Kept; decide), s0_arg m ρ c main_arg10 (by simp)]
  exact shapeCast_row _ _

theorem s1_wa : W3 m ρ c (Proc.devRef .tc main_arg7) = (m ((c : Thread nD τ).loc main_arg7)) :=
  (at3 m ρ c main_arg7 (by unfold Kept; decide)).trans (s0_arg m ρ c main_arg7 (by simp))

theorem s1_wb : W3 m ρ c (Proc.devRef .tc main_arg9) = (m ((c : Thread nD τ).loc main_arg9)) :=
  (at3 m ρ c main_arg9 (by unfold Kept; decide)).trans (s0_arg m ρ c main_arg9 (by simp))

/-- The region's output when it is left: the reference's layer 2, as a function of the arguments. -/
theorem layer2 : W4 m ρ c (Proc.devRef .tc main_v31)
    = Cert.ReferenceIdeal.Read.val_main_v45 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 5).trans ?_
  rw [Cert.KernelIdeal.Region1.arr (V3 m ρ) c, ref_layer2]
  show mlp (W3 m ρ c (Proc.devRef .tc main_v28)) (W3 m ρ c (Proc.devRef .tc main_arg7)) (W3 m ρ c (Proc.devRef .tc main_v29))
      (W3 m ρ c (Proc.devRef .tc main_arg9)) (W3 m ρ c (Proc.devRef .tc main_v30)) = _
  rw [s1_in, s1_ba, s1_bb, s1_wa, s1_wb]

end Cert.Bridge

end
-- ==== Proof.Region2.lean ====
/-
  Region 2 of the idealized kernel program: what its output array holds when the region is left, as ONE function of
  the arrays the region finds when it is entered — whatever those are.

  The grid has ten points; point `t` loads rows `2000 t … 2000 t + 1999` of the node features, the two weight
  matrices and the two bias rows whole, and stores the two-layer rectified perceptron of its block of rows. Row `p`
  of a perceptron depends on row `p` of the features only, so what point `t` writes back is block `t` of the
  perceptron of the WHOLE feature array; the ten blocks tile the output, so the output array ends as that perceptron.
-/
import proofs.«116536_j8546984919141_1_alg».proof.Proof.Gen.KernelIdeal.Frame
import proofs.«116536_j8546984919141_1_alg».proof.Proof.LibGinMlp

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Dense Cert.GinMlp

variable (V : (c : Dev nD) → (b : Ref sig .tc) → Buf (Elt Ideal) ((c : Thread nD τ).loc b))

theorem hz : (![0, 0] : Fin 2 → Nat) = fun _ => 0 := funext fun a => by fin_cases a <;> rfl

/-- The body's stored value is the perceptron of its loaded blocks: narrowing to half precision is the identity on the
    extended reals, and each matrix product into a zero accumulator is the plain matrix product. -/
theorem pay_eq (x0 : Vec Ideal S2000x256 .f32) (x1 : Vec Ideal S256x256 .f32) (x2 : Vec Ideal S1x256 .f32)
    (x3 : Vec Ideal S256x256 .f32) (x4 : Vec Ideal S1x256 .f32) :
    k2_pay1 (F := Ideal) x0 x1 x2 x3 x4 = mlp x0 x1 x2 x3 x4 := by
  unfold k2_pay1
  exact vec_eq dot_S2000x256_S256x256_S2000x256_1_0_0_1_n_n rfl rfl rfl rfl rfl rfl
    dot_S2000x256_S256x256_S2000x256_1_0_0_1_n_n rfl rfl rfl rfl rfl rfl x0 x1 x2 x3 x4 _ _ _ _ _ _

/-- The printed index maps, decided over the ten points: the feature and output windows move down by one block per
    point, the weights and biases stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 10 :=
  (by decide +kernel : ∀ t : Fin grid2.N, _)

/-- WHAT POINT `t` WRITES BACK is block `t` of the perceptron of the whole arrays the region finds. -/
theorem flushed_eq (c : Dev nD) (t : Fin cfg2.N) :
    (dat2 V c).flushed 5 t = ((cfg2.win 5).blk t).view.read (Elt Ideal)
      (mlp (V c main_v42) (V c main_arg11) (V c main_v43) (V c main_arg13) (V c main_v44)) := by
  show (cfg2.win 5).cut (grid2.coords t) ((dat2 V c).after 5 t) = _
  rw [after2_5]
  unfold out2_5
  rw [View.canon_unit_zero hz]
  simp only [View.ld_unit_zero (S := S2000x256) hz, View.ld_unit_zero (S := S128x256) hz, View.ld_unit_zero (S := S1x256) hz,
    View.ld_unit_zero (S := S256x256) hz]
  rw [pay_eq]
  obtain ⟨e00, e01, e10, e11, e20, e21, e30, e31, e40, e41, e50, e51, -⟩ := idx_facts t
  have b1 : iblk2 V c 1 t = V c main_arg11 := by
    funext y
    show V c main_arg11 (((cfg2.win 1).blk t).view.emb y) = V c main_arg11 y
    refine congrArg _ (funext fun a => Fin.ext ?_)
    match a with
    | ⟨0, _⟩ => show win2_1.index t (0 : Fin 2) * 256 + 1 * (y 0).val = (y 0).val; omega
    | ⟨1, _⟩ => show win2_1.index t (1 : Fin 2) * 256 + 1 * (y 1).val = (y 1).val; omega
  have b2 : iblk2 V c 2 t = V c main_v43 := by
    funext y
    show V c main_v43 (((cfg2.win 2).blk t).view.emb y) = V c main_v43 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 256 + 1 * (y 1).val = (y 1).val; omega
  have b3 : iblk2 V c 3 t = V c main_arg13 := by
    funext y
    show V c main_arg13 (((cfg2.win 3).blk t).view.emb y) = V c main_arg13 y
    refine congrArg _ (funext fun a => Fin.ext ?_)
    match a with
    | ⟨0, _⟩ => show win2_3.index t (0 : Fin 2) * 256 + 1 * (y 0).val = (y 0).val; omega
    | ⟨1, _⟩ => show win2_3.index t (1 : Fin 2) * 256 + 1 * (y 1).val = (y 1).val; omega
  have b4 : iblk2 V c 4 t = V c main_v44 := by
    funext y
    show V c main_v44 (((cfg2.win 4).blk t).view.emb y) = V c main_v44 y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 256 + 1 * (y 1).val = (y 1).val; omega
  rw [b1, b2, b3, b4]
  funext j
  show mlp (iblk2 V c 0 t) (V c main_arg11) (V c main_v43) (V c main_arg13) (V c main_v44) j
    = mlp (V c main_v42) (V c main_arg11) (V c main_v43) (V c main_arg13) (V c main_v44) (((cfg2.win 5).blk t).view.emb j)
  refine mlp_congr (V c main_v42) (iblk2 V c 0 t) (V c main_arg11) (V c main_v43) (V c main_arg13) (V c main_v44) _ j ?_ ?_
  · show (j 1).val = win2_5.index t (1 : Fin 2) * 256 + 1 * (j 1).val
    omega
  · intro k
    show V c main_v42 (((cfg2.win 0).blk t).view.emb (ix2 (c0 j) k)) = V c main_v42 (ix2 (c0 (((cfg2.win 5).blk t).view.emb j)) k)
    refine congrArg _ (funext fun a => Fin.ext ?_)
    match a with
    | ⟨0, _⟩ =>
      show win2_0.index t (0 : Fin 2) * 2000 + 1 * (j 0).val = win2_5.index t (0 : Fin 2) * 2000 + 1 * (j 0).val
      omega
    | ⟨1, _⟩ =>
      show win2_0.index t (1 : Fin 2) * 256 + 1 * k.val = k.val
      omega

/-- An index of the output array is in point `t`'s block iff each coordinate is in the block's range on its axis. -/
theorem mem_blk (t : Fin cfg2.N) (i : S20000x256.Idx) :
    i ∈ ((cfg2.win 5).blk t).view.set ↔ ∀ a : Fin 2, win2_5.index t a * S2000x256.size a ≤ (i a).val
      ∧ (i a).val < win2_5.index t a * S2000x256.size a + S2000x256.size a := by
  show i ∈ ((View.whole main_v45).slice (win2_5.rect t)).set ↔ _
  rw [View.set_slice_whole, Rect.mem_set_unit]
  exact Iff.rfl

/-- Row `r` of the output lies in the block of point `r / 2000`. -/
theorem cover (i : S20000x256.Idx) :
    ∃ t : Fin cfg2.N, (cfg2.win 5).flush t = true ∧ i ∈ ((cfg2.win 5).blk t).view.set := by
  have hi0 : (i 0).val < 20000 := (i 0).isLt
  have hi1 : (i 1).val < 256 := (i 1).isLt
  obtain ⟨t, ht⟩ : ∃ t : Fin cfg2.N, t.val = (i 0).val / 2000 :=
    ⟨⟨(i 0).val / 2000, by rw [show cfg2.N = 10 from N_2]; omega⟩, rfl⟩
  obtain ⟨-, -, -, -, -, -, -, -, -, -, e50, e51, -⟩ := idx_facts t
  refine ⟨t, flush2_5 t, ?_⟩
  rw [mem_blk]
  intro a
  match a with
  | ⟨0, _⟩ =>
    show win2_5.index t (0 : Fin 2) * 2000 ≤ (i 0).val ∧ (i 0).val < win2_5.index t (0 : Fin 2) * 2000 + 2000
    omega
  | ⟨1, _⟩ =>
    show win2_5.index t (1 : Fin 2) * 256 ≤ (i 1).val ∧ (i 1).val < win2_5.index t (1 : Fin 2) * 256 + 256
    omega

/-- THE OUTPUT ARRAY when the region is left: the perceptron of the arrays the region found. -/
theorem arr (c : Dev nD) :
    (dat2 V c).arrAt 5 cfg2.N = mlp (V c main_v42) (V c main_arg11) (V c main_v43) (V c main_arg13) (V c main_v44) :=
  (dat2 V c).arrAt_eq_of_cover 5 _ (fun t _ => flushed_eq V c t) cover

end Cert.KernelIdeal.Region2

end
-- ==== Proof.Chain2.lean ====
/-
  Layer 3 of the idealized kernel program, read back to the arguments.

  The stretch of host operations before the region gathers the previous layer's rows along the edges, sums them into
  their target nodes and adds the sum to the previous layer's output — on the same edge rows the opening stretch cut out —,
  and lays the layer's two bias vectors out as rows; the region leaves the two-layer rectified perceptron of that array.
  The reference computes both by the same operations on the same operands: one function of the arguments.
-/
import proofs.«116536_j8546984919141_1_alg».proof.Proof.Chain1
import proofs.«116536_j8546984919141_1_alg».proof.Proof.Kept
import proofs.«116536_j8546984919141_1_alg».proof.Proof.Region2

set_option maxRecDepth 16384

noncomputable section

namespace Cert.Bridge

open Cert.KernelIdeal Cert.KernelIdeal.Gen
open Idealize.ShloMosaic Idealize.ShloMosaic.TcCoe Idealize.SL.Sem Idealize.ShloMosaic.ValueIdx
open Cert.Dense Cert.GinMlp

/-- The reference's layer is the perceptron of its neighbour-summed input. -/
theorem ref_layer3 (x0 : (⟨Cert.ReferenceIdeal.S20000x128, .f32⟩ : BufTy).Contents (Elt Ideal)) (x1 : (⟨Cert.ReferenceIdeal.S2x320000, .i32⟩ : BufTy).Contents (Elt Ideal)) (x3 : (⟨Cert.ReferenceIdeal.S128x256, .f32⟩ : BufTy).Contents (Elt Ideal)) (x4 : (⟨Cert.ReferenceIdeal.S256, .f32⟩ : BufTy).Contents (Elt Ideal)) (x5 : (⟨Cert.ReferenceIdeal.S256x256, .f32⟩ : BufTy).Contents (Elt Ideal)) (x6 : (⟨Cert.ReferenceIdeal.S256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal)) (x9 : (⟨Cert.ReferenceIdeal.S256x256, .f32⟩ : BufTy).Contents (Elt Ideal)) (x10 : (⟨Cert.ReferenceIdeal.S256, .f32⟩ : BufTy).Contents (Elt Ideal)) (x11 : (⟨Cert.ReferenceIdeal.S256x256, .f32⟩ : BufTy).Contents (Elt Ideal)) (x12 : (⟨Cert.ReferenceIdeal.S256, .f32⟩ : BufTy).Contents (Elt Ideal)) (x13 : (⟨Cert.ReferenceIdeal.S256x256, .f32⟩ : BufTy).Contents (Elt Ideal)) (x14 : (⟨Cert.ReferenceIdeal.S256, .f32⟩ : BufTy).Contents (Elt Ideal)) :
    Cert.ReferenceIdeal.Read.val_main_v66 (F := Ideal) x0 x1 x3 x4 x5 x6 x7 x8 x9 x10 x11 x12 x13 x14
      = mlp (Cert.ReferenceIdeal.Read.val_main_v56 (F := Ideal) x0 x1 x3 x4 x5 x6 x7 x8 x9 x10) x11 (row x12) x13 (row x14) := by
  unfold Cert.ReferenceIdeal.Read.val_main_v66 Cert.ReferenceIdeal.Read.val_main_v65 Cert.ReferenceIdeal.Read.val_main_v62 Cert.ReferenceIdeal.Read.val_main_v61 Cert.ReferenceIdeal.Read.val_main_v60 Cert.ReferenceIdeal.Read.val_main_v57 Cert.ReferenceIdeal.Read.val_main_v59 Cert.ReferenceIdeal.Read.val_main_v58 Cert.ReferenceIdeal.Read.val_main_v64 Cert.ReferenceIdeal.Read.val_main_v63 Cert.ReferenceIdeal.Read.val_main_call4_v0 Cert.ReferenceIdeal.Read.val_main_call4_cst Cert.ReferenceIdeal.Read.val_main_call5_v0 Cert.ReferenceIdeal.Read.val_main_call5_cst
  exact host_eq Cert.ReferenceIdeal.dot_S20000x256_S256x256_S20000x256_1_0_0_1_n_n rfl rfl rfl rfl rfl rfl
    Cert.ReferenceIdeal.dot_S20000x256_S256x256_S20000x256_1_0_0_1_n_n rfl rfl rfl rfl rfl rfl _ x11 x12 x13 x14 _ _ _ _ _ _

variable (m : (ℓ : Loc nD τ sig) → Buf (Elt Ideal) ℓ) (ρ : Dev nD → PrngReg) (c : Dev nD)

/-- The neighbour-summed input of layer 3. -/
theorem s2_in : W5 m ρ c (Proc.devRef .tc main_v42)
    = Cert.ReferenceIdeal.Read.val_main_v56 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 (W4 m ρ c) (Proc.devRef .tc main_v42) = _
  after_results_simp
  rw [layer2 m ρ c, at4 m ρ c main_v1 (by unfold Kept4; decide), at4 m ρ c main_v3 (by unfold Kept4; decide), s0_v1, s0_v3]
  rfl

theorem s2_ba : W5 m ρ c (Proc.devRef .tc main_v43) = row (m ((c : Thread nD τ).loc main_arg12)) := by
  show StableHlo.after hostOps2 (W4 m ρ c) (Proc.devRef .tc main_v43) = _
  after_results_simp
  rw [at4 m ρ c main_arg12 (by unfold Kept4; decide), s0_arg m ρ c main_arg12 (by simp)]
  exact shapeCast_row _ _

theorem s2_bb : W5 m ρ c (Proc.devRef .tc main_v44) = row (m ((c : Thread nD τ).loc main_arg14)) := by
  show StableHlo.after hostOps2 (W4 m ρ c) (Proc.devRef .tc main_v44) = _
  after_results_simp
  rw [at4 m ρ c main_arg14 (by unfold Kept4; decide), s0_arg m ρ c main_arg14 (by simp)]
  exact shapeCast_row _ _

theorem s2_wa : W5 m ρ c (Proc.devRef .tc main_arg11) = (m ((c : Thread nD τ).loc main_arg11)) :=
  (at5 m ρ c main_arg11 (by unfold Kept4; decide)).trans (s0_arg m ρ c main_arg11 (by simp))

theorem s2_wb : W5 m ρ c (Proc.devRef .tc main_arg13) = (m ((c : Thread nD τ).loc main_arg13)) :=
  (at5 m ρ c main_arg13 (by unfold Kept4; decide)).trans (s0_arg m ρ c main_arg13 (by simp))

/-- The region's output when it is left: the reference's layer 3, as a function of the arguments. -/
theorem layer3 : W6 m ρ c (Proc.devRef .tc main_v45)
    = Cert.ReferenceIdeal.Read.val_main_v66 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W6_arr m ρ c 5).trans ?_
  rw [Cert.KernelIdeal.Region2.arr (V5 m ρ) c, ref_layer3]
  show mlp (W5 m ρ c (Proc.devRef .tc main_v42)) (W5 m ρ c (Proc.devRef .tc main_arg11)) (W5 m ρ c (Proc.devRef .tc main_v43))
      (W5 m ρ c (Proc.devRef .tc main_arg13)) (W5 m ρ c (Proc.devRef .tc main_v44)) = _
  rw [s2_in, s2_ba, s2_bb, s2_wa, s2_wb]

end Cert.Bridge

end
-- ==== Proof.Tail.lean ====
/-
  The closing stretch of the idealized kernel program, read back to the arguments: the third layer's rows are summed per
  graph, multiplied by the last weight matrix, the last bias is added to every row, and each row's log-softmax is taken.
  The reference ends with the same operations on the same operands, so the kernel program's result buffer ends at the
  reference's result as a function of the arguments.
-/
import proofs.«116536_j8546984919141_1_alg».proof.Proof.Chain2

set_option maxRecDepth 16384

noncomputable section

namespace Cert.Bridge

open Cert.KernelIdeal Cert.KernelIdeal.Gen
open Idealize.ShloMosaic Idealize.ShloMosaic.TcCoe Idealize.SL.Sem Idealize.ShloMosaic.ValueIdx
open Cert.Dense Cert.GinMlp

variable (m : (ℓ : Loc nD τ sig) → Buf (Elt Ideal) ℓ) (ρ : Dev nD → PrngReg) (c : Dev nD)

/-- The kernel program's result: the reference's result term of the kernel program's own arguments. -/
theorem result : W8 m ρ c (Proc.devRef .tc main_v53)
    = Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps3_1 (StableHlo.after hostOps3 (W6 m ρ c)) (Proc.devRef .tc main_v53) = _
  after_results_simp
  rw [layer3 m ρ c, at6 m ρ c main_arg2 (by unfold Kept6; decide), at6 m ρ c main_arg15 (by unfold Kept6; decide), at6 m ρ c main_arg16 (by unfold Kept6; decide),
    s0_arg m ρ c main_arg2 (by simp), s0_arg m ρ c main_arg15 (by simp), s0_arg m ρ c main_arg16 (by simp)]
  rfl

end Cert.Bridge

end
-- ==== Proof.lean ====
/-
  The certificate of a three-layer graph isomorphism network with a global sum pool and a linear read-out.

  Each layer replaces a node's features by a two-layer rectified perceptron of the node's own features plus the sum of
  its in-neighbours' features. The kernel program computes the neighbour sums on the host (a gather along the edges and a
  scatter-add into the target nodes) and each perceptron in a region of ten grid points, one block of 2000 nodes per
  point, with operands narrowed to half precision on the way into the matrix unit; the reference computes everything on
  the host in single precision. On the extended reals narrowing is the identity, a matrix product into a zero
  accumulator is the host's dot product, and a row of a perceptron depends on the same row of its input only; so each
  region leaves the reference's layer, and the host stretches around the regions are the reference's own operations on
  the same operands. No algebraic law beyond that is used, and the precondition is never opened.

  The frames of the two kernel programs are the generated ones; the reference's frame is its generated run with the
  result dropped; the idealization rewrote nothing.
-/
import proofs.«116536_j8546984919141_1_alg».proof.Defs
import proofs.«116536_j8546984919141_1_alg».proof.Proof.Gen.Kernel
import proofs.«116536_j8546984919141_1_alg».proof.Proof.Gen.Kernel.Frame
import proofs.«116536_j8546984919141_1_alg».proof.Proof.Gen.KernelIdeal
import proofs.«116536_j8546984919141_1_alg».proof.Proof.Gen.KernelIdeal.Frame
import proofs.«116536_j8546984919141_1_alg».proof.Proof.Gen.ReferenceIdeal
import proofs.«116536_j8546984919141_1_alg».proof.Proof.Gen.ReferenceIdeal.Run
import proofs.«116536_j8546984919141_1_alg».proof.Proof.Gen.ReferenceIdeal.Read
import proofs.«116536_j8546984919141_1_alg».proof.Proof.Gen.Pre_finite_inputs
import proofs.«116536_j8546984919141_1_alg».proof.Proof.KernelRun
import proofs.«116536_j8546984919141_1_alg».proof.Proof.Tail

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end at the reference's result term of their (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W8 m ρ c (Proc.devRef .tc Cert.KernelIdeal.main_v53), Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v74 m' c = Cert.KernelIdeal.Gen.W8 m ρ c (Proc.devRef .tc Cert.KernelIdeal.main_v53)
  rw [Cert.ReferenceIdeal.Read.val_main_v74_eq, Cert.Bridge.result m ρ c]
  obtain ⟨h0, h1, h2, h3, h4, h5, h6, h7, h8, h9, h10, h11, h12, h13, h14, h15, h16⟩ := hagree c
  rw [h0, h1, h2, h3, h4, h5, h6, h7, h8, h9, h10, h11, h12, h13, h14, h15, h16]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
